-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S16x1024x256 : Shape := ⟨3, ![16, 1024, 256]⟩
abbrev S256x256 : Shape := ⟨2, ![256, 256]⟩
abbrev S256 : Shape := ⟨1, ![256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16x1024x256 : S_.BroadcastsInDim S16x1024x256 (![] : Fin 0 → Fin S16x1024x256.rank)
  reducesTo_S16x1024x256_S_d0_1_2 : S16x1024x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S16x4096x256 .f32) (main_arg1 : FVec F S16x1024x256 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x1024x256 .f32 := Host.absf main_arg1
  let main_cst_0 : FVec F S_ .f32 := constant S_ .f32 0x7F800000#32
  let main_v5 : FVec F S16x1024x256 .f32 := broadcastInDim S16x1024x256 ![] bcast_S_S16x1024x256 main_cst_0
  let main_v6 : IVec S16x1024x256 1 := cmpf .olt main_v4 main_v5
  let main_c_1 : IVec S_ 1 := constantI S_ 1 1#1
  let main_v7 : IVec S_ 1 := (fun x v => Host.reduce IntOp.andi x v reducesTo_S16x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S16x4096x256 : Shape := ⟨3, ![16, 4096, 256]⟩
abbrev S16x1024x256 : Shape := ⟨3, ![16, 1024, 256]⟩
abbrev S256x256 : Shape := ⟨2, ![256, 256]⟩
abbrev S256 : Shape := ⟨1, ![256]⟩
abbrev S1x256 : Shape := ⟨2, ![1, 256]⟩
abbrev S16x256x256 : Shape := ⟨3, ![16, 256, 256]⟩
abbrev S1x1024x256 : Shape := ⟨3, ![1, 1024, 256]⟩
abbrev S1x256x256 : Shape := ⟨3, ![1, 256, 256]⟩
abbrev S1024x256 : Shape := ⟨2, ![1024, 256]⟩

abbrev nBuf : Space → Nat
  | .hbm => 19
  | .vmem => 16
  | .smem => 0
  | _ => 0

abbrev bufTy : (tb : Table) → Fin (tcTables nBuf tb) → BufTy
  | .hbm, ⟨0, _⟩ => ⟨S16x4096x256, .f32⟩
  | .hbm, ⟨1, _⟩ => ⟨S16x1024x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .bf16⟩
  | .hbm, ⟨12, _⟩ => ⟨S256x256, .f32⟩
  | .hbm, ⟨13, _⟩ => ⟨S256x256, .bf16⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S16x256x256, .f32⟩
  | .hbm, ⟨18, _⟩ => ⟨S16x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S1x256x256, .f32⟩
  | .local _ .vmem, ⟨7, _⟩ => ⟨S1x256x256, .f32⟩
  | .local _ .vmem, ⟨8, _⟩ => ⟨S1x1024x256, .f32⟩
  | .local _ .vmem, ⟨9, _⟩ => ⟨S1x1024x256, .f32⟩
  | .local _ .vmem, ⟨10, _⟩ => ⟨S256x256, .bf16⟩
  | .local _ .vmem, ⟨11, _⟩ => ⟨S1x256, .f32⟩
  | .local _ .vmem, ⟨12, _⟩ => ⟨S1x256x256, .f32⟩
  | .local _ .vmem, ⟨13, _⟩ => ⟨S1x256x256, .f32⟩
  | .local _ .vmem, ⟨14, _⟩ => ⟨S1x1024x256, .f32⟩
  | .local _ .vmem, ⟨15, _⟩ => ⟨S1x1024x256, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x256_S1024x256_S256x256_0_0_1_1_n_n_wf : DotDims.WF S1024x256 S1024x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .f32 = 32 ∨ (Rect.block (s := S16x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S16x256x256.size a
  hwx0_5 : ∀ i : grid0.Coords, EltTy.bits .f32 = 32 ∨ (Rect.block (s := S16x256x256) S1x256x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S16x4096x256.size a
  hwx1_0 : ∀ i : grid1.Coords, EltTy.bits .f32 = 32 ∨ (Rect.block (s := S16x4096x256) S1x1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S16x256x256.size a
  hwx1_3 : ∀ i : grid1.Coords, EltTy.bits .f32 = 32 ∨ (Rect.block (s := S16x256x256) S1x256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x256.size a ≤ S16x4096x256.size a
  hwx1_4 : ∀ i : grid1.Coords, EltTy.bits .f32 = 32 ∨ (Rect.block (s := S16x4096x256) S1x1024x256.size (cc1_transform_4 i) (hinb1_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf

abbrev win0_0 : Pipeline.Window sig grid0 :=
  Pipeline.Window.ofSpec (Memref.whole main_arg1) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x4096x256 : Shape := ⟨3, ![16, 4096, 256]⟩
abbrev S16x1024x256 : Shape := ⟨3, ![16, 1024, 256]⟩
abbrev S256x256 : Shape := ⟨2, ![256, 256]⟩
abbrev S256 : Shape := ⟨1, ![256]⟩
abbrev S1x1x256 : Shape := ⟨3, ![1, 1, 256]⟩
abbrev S16x4096x1024 : Shape := ⟨3, ![16, 4096, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x1024x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S16x4096x256, .f32⟩
  | .hbm, ⟨9, _⟩ => ⟨S1x1x256, .f32⟩
  | .hbm, ⟨10, _⟩ => ⟨S16x4096x256, .f32⟩
  | .hbm, ⟨11, _⟩ => ⟨S16x4096x256, .f32⟩
  | .hbm, ⟨12, _⟩ => ⟨S16x4096x256, .f32⟩
  | .hbm, ⟨13, _⟩ => ⟨S16x1024x256, .f32⟩
  | .hbm, ⟨14, _⟩ => ⟨S1x1x256, .f32⟩
  | .hbm, ⟨15, _⟩ => ⟨S16x1024x256, .f32⟩
  | .hbm, ⟨16, _⟩ => ⟨S16x1024x256, .f32⟩
  | .hbm, ⟨17, _⟩ => ⟨S16x1024x256, .f32⟩
  | .hbm, ⟨18, _⟩ => ⟨S16x1024x256, .f32⟩
  | .hbm, ⟨19, _⟩ => ⟨S1x1x256, .f32⟩
  | .hbm, ⟨20, _⟩ => ⟨S16x1024x256, .f32⟩
  | .hbm, ⟨21, _⟩ => ⟨S16x1024x256, .f32⟩
  | .hbm, ⟨22, _⟩ => ⟨S16x1024x256, .f32⟩
  | .hbm, ⟨23, _⟩ => ⟨S16x4096x1024, .f32⟩
  | .hbm, ⟨24, _⟩ => ⟨S_, .f32⟩
  | .hbm, ⟨25, _⟩ => ⟨S16x4096x1024, .f32⟩
  | .hbm, ⟨26, _⟩ => ⟨S16x4096x1024, .f32⟩
  | .hbm, ⟨27, _⟩ => ⟨S16x4096x256, .f32⟩
  | .hbm, ⟨28, _⟩ => ⟨S16x4096x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x4096x256_0_1_2 : S1x1x256.BroadcastsInDim S16x4096x256 (![0, 1, 2] : Fin 3 → Fin S16x4096x256.rank)
  bcast_S1x1x256_S16x1024x256_0_1_2 : S1x1x256.BroadcastsInDim S16x1024x256 (![0, 1, 2] : Fin 3 → Fin S16x1024x256.rank)
  bcast_S_S16x4096x1024 : S_.BroadcastsInDim S16x4096x1024 (![] : Fin 0 → Fin S16x4096x1024.rank)
  dot_S16x4096x256_S256x256_S16x4096x256_2_1_01_0_n_n_wf : DotDims.WF S16x4096x256 S256x256 S16x4096x256 [2] [1] [0, 1] [0] [] []
  dot_S16x1024x256_S256x256_S16x1024x256_2_1_01_0_n_n_wf : DotDims.WF S16x1024x256 S256x256 S16x1024x256 [2] [1] [0, 1] [0] [] []
  dot_S16x4096x256_S16x1024x256_S16x4096x1024_2_2_1_1_0_0_wf : DotDims.WF S16x4096x256 S16x1024x256 S16x4096x1024 [2] [2] [1] [1] [0] [0]
  dot_S16x4096x1024_S16x1024x256_S16x4096x256_2_1_1_2_0_0_wf : DotDims.WF S16x4096x1024 S16x1024x256 S16x4096x256 [2] [1] [1] [2] [0] [0]

variable [Facts₀]

def dot_S16x4096x256_S256x256_S16x4096x256_2_1_01_0_n_n : DotDims S16x4096x256 S256x256 S16x4096x256 where
  lhsContracting := [2]
  rhsContracting := [1]
  lhsNonContracting := [0, 1]
  rhsNonContracting := [0]
  lhsBatch := []
  rhsBatch := []
  wf := dot_S16x4096x256_S256x256_S16x4096x256_2_1_01_0_n_n_wf
def dot_S16x1024x256_S256x256_S16x1024x256_2_1_01_0_n_n : DotDims S16x1024x256 S256x256 S16x1024x256 where
  lhsContracting := [2]
  rhsContracting := [1]
  lhsNonContracting := [0, 1]
  rhsNonContracting := [0]
  lhsBatch := []
  rhsBatch := []
  wf := dot_S16x1024x256_S256x256_S16x1024x256_2_1_01_0_n_n_wf
def dot_S16x4096x256_S16x1024x256_S16x4096x1024_2_2_1_1_0_0 : DotDims S16x4096x256 S16x1024x256 S16x4096x1024 where
  lhsContracting := [2]
  rhsContracting := [2]
  lhsNonContracting := [1]
  rhsNonContracting := [1]
  lhsBatch := [0]
  rhsBatch := [0]
  wf := dot_S16x4096x256_S16x1024x256_S16x4096x1024_2_2_1_1_0_0_wf
def dot_S16x4096x1024_S16x1024x256_S16x4096x256_2_1_1_2_0_0 : DotDims S16x4096x1024 S16x1024x256 S16x4096x256 where
  lhsContracting := [2]
  rhsContracting := [1]
  lhsNonContracting := [1]
  rhsNonContracting := [2]
  lhsBatch := [0]
  rhsBatch := [0]
  wf := dot_S16x4096x1024_S16x1024x256_S16x4096x256_2_1_1_2_0_0_wf

class Facts : Prop extends Facts₀ where

variable [Facts]
-- ==== Proof.KRun.lean ====
/-
  The idealized kernel's run with its RESULT named.

  @main is a stretch of host operations (three transposes with a change of format, three reshapes) followed by two
  pipelined regions. The contents of every unscoped buffer at the three boundaries form a fold: the launch memory,
  then the host operations applied, then region 0's arrays at what its write-backs leave, then region 1's. Every
  weakly fair execution terminates without a fault in a state whose unscoped buffers hold the last stage of that
  fold; read at the argument arrays this is the frame claim, and read at the result buffer it says the result is what
  region 1's write-backs leave of its output window. This module states the second reading beside the first.
-/
import proofs.«168025_j43911745634336_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault; the result buffer ends at the last boundary's
    contents and the eight argument arrays end as launched. -/
theorem run_result : θ_run defs (onTc (τ := τ) (main (F := F))) ⟨m, fun _ => 0, ρ⟩ (fun r => ∀ c : Dev nD,
      r.2.mem ((c.tc : Thread nD τ).loc main_v10) = W3 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v10 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

/-- The last boundary's contents at the result buffer are what region 1's write-backs leave of its output window
    (window 4), from the contents region 1 is entered with. -/
theorem result_eq_arrAt (c : Dev nD) :
    W3 m ρ c (Proc.devRef .tc main_v10) = (dat1 (V2 m ρ) c).arrAt 4 cfg1.N :=
  W3_arr m ρ c 4

/-- Region 1 is entered with region 0's output array (its window 5, the buffer region 1 reads through its window 3)
    at what region 0's write-backs leave. -/
theorem entry1_v9 (c : Dev nD) :
    V2 m ρ c main_v9 = (dat0 (V1 m ρ) c).arrAt 5 cfg0.N :=
  W2_arr m ρ c 5

end Cert.KernelIdeal.Result

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibDenseRow.lean ====
/-
  A dense layer's row, read at an entry on the extended reals, for any extents.

  The layer multiplies an `[R, K]` matrix of inputs by the TRANSPOSE of an `[N, K]` weight matrix (so the weight is stored
  one row per output unit), into the zero accumulator, and adds a bias vector `[N]` made a row `[1, N]` and repeated
  down the `R` rows. Entry `(r, g)` is `Σₖ A (r, k) · W (g, k) + bias g`. The three pieces are stated on their own
  too: the transposed matrix at an entry, the repeated bias row at an entry, and the product with the transposed weight.
-/
import Idealize.ShloMosaic.Lib.Pipeline.Value
import Idealize.ShloMosaic.Lib.ValueIdx
import Idealize.ShloMosaic.PureOps.Ideal.Laws
import proofs.«168025_j43911745634336_1_alg».proof.Proof.LibPlainMatmul

noncomputable section

open scoped BigOperators

namespace Cert.LibDenseRow

open Idealize.ShloMosaic Idealize.ShloMosaic.ValueIdx

variable {R K N : ℕ}

/-- The transpose of an `[N, K]` matrix at `(k, g)` is the matrix at `(g, k)`. -/
theorem transpose_at {α : Type} (W : (⟨2, ![N, K]⟩ : Shape).Idx → α)
    (h : (⟨2, ![N, K]⟩ : Shape).Transposes [1, 0] ⟨2, ![K, N]⟩) (k : Fin K) (g : Fin N) :
    transpose ⟨2, ![K, N]⟩ [1, 0] W h (ix2 k g) = W (ix2 g k) :=
  transpose_apply [1, 0] W h (ix2 k g) (ix2 g k) (fun b => match b with
    | ⟨0, _⟩ => rfl
    | ⟨1, _⟩ => rfl)

/-- A vector `[N]` made a row `[1, N]` and repeated down `R` rows reads, at `(r, g)`, the vector at `g`. -/
theorem biasRow_at {α : Type} (bias : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (g : Fin N) :
    broadcastTo ⟨2, ![R, N]⟩ (shapeCast ⟨2, ![1, N]⟩ bias hc) hb (ix2 r g) = bias (ix1 g) := by
  refine (broadcastTo_apply _ hb (ix2 r g) (ix2 (0 : Fin 1) g) (fun a => ?_)).trans ?_
  · match a with
    | ⟨0, _⟩ => show (0 : ℕ) = if (1 : ℕ) = 1 then 0 else _; rw [if_pos rfl]
    | ⟨1, _⟩ =>
      show g.val = if N = 1 then 0 else g.val
      split_ifs with h
      · have := g.isLt; omega
      · rfl
  · refine shapeCast_apply bias hc (ix2 (0 : Fin 1) g) (ix1 g) ?_
    rw [Shape.rowMajor_val_one, Shape.rowMajor_val_two]
    show g.val = 0 * N + g.val
    omega

/-- The product with a transposed weight into the zero accumulator, at `(r, g)`: `Σₖ A (r, k) · W (g, k)`. -/
theorem matmulT_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩) (r : Fin R) (g : Fin N) :
    FloatOps.matmul (DotDims.plain R K N) prec A (transpose ⟨2, ![K, N]⟩ [1, 0] W h)
        (constant ⟨2, ![R, N]⟩ .f32 0x00000000#32) (ix2 r g)
      = ∑ k : Fin K, A (ix2 r k) * W (ix2 g k) := by
  rw [Cert.LibPlainMatmul.matmul_zero_apply]
  exact Finset.sum_congr rfl fun k _ => by rw [transpose_at]

/-- THE DENSE ROW: the product with the transposed weight plus the repeated bias row, at `(r, g)`. -/
theorem dense_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩)
    (bias : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) (g : Fin N) :
    addf (FloatOps.matmul (DotDims.plain R K N) prec A (transpose ⟨2, ![K, N]⟩ [1, 0] W h)
        (constant ⟨2, ![R, N]⟩ .f32 0x00000000#32)) (broadcastTo ⟨2, ![R, N]⟩ (shapeCast ⟨2, ![1, N]⟩ bias hc) hb) (ix2 r g)
      = (∑ k : Fin K, A (ix2 r k) * W (ix2 g k)) + bias (ix1 g) := by
  rw [addf_apply, matmulT_at, biasRow_at]

end Cert.LibDenseRow

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.Payload.lean ====
/-
  The two kernel bodies' arithmetic, read at an index on the extended reals.

  Each body loads whole blocks, computes one value and stores it whole, so its stored block is one pure term of the
  loaded blocks. A block carries a leading unit axis ([1, 1024, 256] or [1, 256, 256]) which the body casts away on
  loading and back on storing; a change of float format is the identity on the extended reals.

  Region 0, from a block `x` of [1, 1024, 256] inputs, two [256, 256] weights already transposed (`wg`, `wv`: one
  column per output unit) and two [1, 256] bias rows: the two dense layers with a hyperbolic tangent
      g (m, e) = tanh (Σₖ x (0, m, k) · wg (k, e) + βg (0, e)),   v (m, d) = tanh (Σₖ x (0, m, k) · wv (k, d) + βv (0, d)),
  then the product of `g` transposed with `v` — a matrix product contracting the FIRST axis of both operands —
  scaled by the constant: entry (0, e, d) of the stored block is (Σₘ g (m, e) · v (m, d)) · 2⁻¹⁰.

  Region 1, from a block `x` of [1, 1024, 256] inputs, a transposed weight `wl`, a bias row and the [1, 256, 256]
  block `M` region 0 left: l (n, e) = tanh (Σₖ x (0, n, k) · wl (k, e) + βl (0, e)), and entry (0, n, d) of the stored
  block is Σₑ l (n, e) · M (0, e, d) + x (0, n, d).
-/
import proofs.«168025_j43911745634336_1_alg».proof.Proof.Gen.KernelIdeal.Skeleton
import proofs.«168025_j43911745634336_1_alg».proof.Proof.LibDenseRow
import proofs.«168025_j43911745634336_1_alg».proof.Proof.LibBlockLayout
import Idealize.ShloMosaic.Lib.Pipeline.Value
import Idealize.ShloMosaic.Lib.ValueIdx
import Idealize.ShloMosaic.PureOps.Ideal.Laws

set_option maxRecDepth 16384

noncomputable section

open scoped BigOperators

namespace Cert.Attn.Payload

open Cert.KernelIdeal Cert.KernelIdeal.Gen Idealize.ShloMosaic Idealize.ShloMosaic.ValueIdx Cert.LibBlockLayout

/-! ## The product contracting the first axis of both operands -/

/-- The left operand's index of that product at result entry `i` and contraction position `q`: row `q` … -/
theorem gram_lhs_row (i : S256x256.Idx) (q : dot_S1024x256_S1024x256_S256x256_0_0_1_1_n_n.contr.Idx) :
    (dot_S1024x256_S1024x256_S256x256_0_0_1_1_n_n.lhsIdx i q 0).val = (q ⟨0, by decide⟩).val :=
  dot_S1024x256_S1024x256_S256x256_0_0_1_1_n_n.lhsIdx_val_of_single rfl i q

/-- … and column `i 0`. -/
theorem gram_lhs_col (i : S256x256.Idx) (q : dot_S1024x256_S1024x256_S256x256_0_0_1_1_n_n.contr.Idx) :
    (dot_S1024x256_S1024x256_S256x256_0_0_1_1_n_n.lhsIdx i q 1).val = (i 0).val := by
  unfold DotDims.lhsIdx
  rw [dif_neg (show ¬(1 : Fin S1024x256.rank) ∈ dot_S1024x256_S1024x256_S256x256_0_0_1_1_n_n.lhsBatch by decide),
    dif_pos (show (1 : Fin S1024x256.rank) ∈ dot_S1024x256_S1024x256_S256x256_0_0_1_1_n_n.lhsNonContracting by decide)]
  rfl

/-- The right operand's index: row `q` … -/
theorem gram_rhs_row (i : S256x256.Idx) (q : dot_S1024x256_S1024x256_S256x256_0_0_1_1_n_n.contr.Idx) :
    (dot_S1024x256_S1024x256_S256x256_0_0_1_1_n_n.rhsIdx i q 0).val = (q ⟨0, by decide⟩).val :=
  dot_S1024x256_S1024x256_S256x256_0_0_1_1_n_n.rhsIdx_val_of_single rfl i q

/-- … and column `i 1`. -/
theorem gram_rhs_col (i : S256x256.Idx) (q : dot_S1024x256_S1024x256_S256x256_0_0_1_1_n_n.contr.Idx) :
    (dot_S1024x256_S1024x256_S256x256_0_0_1_1_n_n.rhsIdx i q 1).val = (i 1).val := by
  unfold DotDims.rhsIdx
  rw [dif_neg (show ¬(1 : Fin S1024x256.rank) ∈ dot_S1024x256_S1024x256_S256x256_0_0_1_1_n_n.rhsBatch by decide),
    dif_pos (show (1 : Fin S1024x256.rank) ∈ dot_S1024x256_S1024x256_S256x256_0_0_1_1_n_n.rhsNonContracting by decide)]
  rfl

/-- The product of `A` transposed with `B` into the zero accumulator, at (e, d): `Σₘ A (m, e) · B (m, d)`. -/
theorem gram_at {φ₁ φ₂ : FTy} (A : FVec Ideal S1024x256 φ₁) (B : FVec Ideal S1024x256 φ₂) (e d : Fin 256) :
    FloatOps.matmul dot_S1024x256_S1024x256_S256x256_0_0_1_1_n_n none A B (constant S256x256 .f32 0x00000000#32) (ix2 e d)
      = ∑ m : Fin 1024, A (ix2 m e) * B (ix2 m d) := by
  rw [Ideal.matmul_constant_zero_apply,
    ← Equiv.sum_comp (contrEquiv1 dot_S1024x256_S1024x256_S256x256_0_0_1_1_n_n 1024 rfl rfl).symm]
  refine Finset.sum_congr rfl fun k _ => ?_
  have hk := contrEquiv1_symm_val dot_S1024x256_S1024x256_S256x256_0_0_1_1_n_n 1024 rfl rfl k
  have el : dot_S1024x256_S1024x256_S256x256_0_0_1_1_n_n.lhsIdx (ix2 e d)
      ((contrEquiv1 dot_S1024x256_S1024x256_S256x256_0_0_1_1_n_n 1024 rfl rfl).symm k) = ix2 k e :=
    funext fun a => Fin.ext (by
      match a with
      | ⟨0, _⟩ => exact (gram_lhs_row _ _).trans hk
      | ⟨1, _⟩ => exact gram_lhs_col _ _)
  have er : dot_S1024x256_S1024x256_S256x256_0_0_1_1_n_n.rhsIdx (ix2 e d)
      ((contrEquiv1 dot_S1024x256_S1024x256_S256x256_0_0_1_1_n_n 1024 rfl rfl).symm k) = ix2 k d :=
    funext fun a => Fin.ext (by
      match a with
      | ⟨0, _⟩ => exact (gram_rhs_row _ _).trans hk
      | ⟨1, _⟩ => exact gram_rhs_col _ _)
  rw [el, er]

/-! ## One dense layer of a body, at an entry -/

/-- A vector's hyperbolic tangent is taken entry by entry. -/
theorem tanh_at {s : Shape} {φ : FTy} (a : FVec Ideal s φ) (i : s.Idx) : tanh a i = Ideal.tanh (a i) := rfl

/-- A body's dense layer with a hyperbolic tangent: the block's rows times a transposed weight, plus a bias row, at
    (r, g). -/
theorem dense_tanh_at (x : FVec Ideal S1x1024x256 .f32) (w : FVec Ideal S256x256 .bf16) (β : FVec Ideal S1x256 .f32)
    (r : Fin 1024) (g : Fin 256) :
    tanh (addf (matmul dot_S1024x256_S256x256_S1024x256_1_0_0_1_n_n none
        (truncf .bf16 (shapeCast S1024x256 x shapeCasts_S1x1024x256_S1024x256) bitsLt_bf16_f32)
        (shapeCast S256x256 w shapeCasts_S256x256_S256x256) (constant S1024x256 .f32 0x00000000#32))
      (broadcastTo S1024x256 (shapeCast S1x256 β shapeCasts_S1x256_S1x256) broadcasts_S1x256_S1024x256)) (ix2 r g)
      = Ideal.tanh ((∑ k : Fin 256, x (ix3 (0 : Fin 1) r k) * w (ix2 k g)) + β (ix2 (0 : Fin 1) g)) := by
  rw [tanh_at, addf_apply, shapeCast_self, shapeCast_self, rowBroadcast_at]
  refine congrArg (fun s => Ideal.tanh (s + β (ix2 (0 : Fin 1) g))) ?_
  refine (Cert.LibPlainMatmul.matmul_zero_apply (a := 1024) (n := 256) (b := 256) none _ _ r g).trans ?_
  exact Finset.sum_congr rfl fun k _ => by rw [truncf_apply, dropUnit_at]

/-! ## The two stored blocks, at an entry -/

/-- Region 0's stored block at (0, e, d): the scaled product of `g` transposed with `v`. -/
theorem pay0_at (v0 : Vec Ideal S1x1024x256 .f32) (v3 : Vec Ideal S256x256 .bf16) (v6 : Vec Ideal S1x256 .f32)
    (v11 : Vec Ideal S256x256 .bf16) (v14 : Vec Ideal S1x256 .f32) (e d : Fin 256) :
    k0_pay1 (F := Ideal) v0 v3 v6 v11 v14 (ix3 (0 : Fin 1) e d)
      = (∑ m : Fin 1024,
            Ideal.tanh ((∑ k : Fin 256, v0 (ix3 (0 : Fin 1) m k) * v3 (ix2 k e)) + v6 (ix2 (0 : Fin 1) e))
          * Ideal.tanh ((∑ k : Fin 256, v0 (ix3 (0 : Fin 1) m k) * v11 (ix2 k d)) + v14 (ix2 (0 : Fin 1) d)))
        * Ideal.ofBits .f32 0x3A800000#32 := by
  unfold k0_pay1
  rw [addUnit_at, mulf_apply, broadcast_apply]
  refine congrArg (fun s => s * Ideal.ofBits .f32 0x3A800000#32)
    ((gram_at _ _ e d).trans (Finset.sum_congr rfl fun m _ => ?_))
  rw [truncf_apply, truncf_apply, dense_tanh_at, dense_tanh_at]

/-- Region 1's stored block at (0, n, d): `l` times the small matrix, plus the input. -/
theorem pay1_at (v0 : Vec Ideal S1x1024x256 .f32) (v3 : Vec Ideal S256x256 .bf16) (v6 : Vec Ideal S1x256 .f32)
    (v11 : Vec Ideal S1x256x256 .f32) (n : Fin 1024) (d : Fin 256) :
    k1_pay1 (F := Ideal) v0 v3 v6 v11 (ix3 (0 : Fin 1) n d)
      = (∑ e : Fin 256,
            Ideal.tanh ((∑ k : Fin 256, v0 (ix3 (0 : Fin 1) n k) * v3 (ix2 k e)) + v6 (ix2 (0 : Fin 1) e))
          * v11 (ix3 (0 : Fin 1) e d)) + v0 (ix3 (0 : Fin 1) n d) := by
  unfold k1_pay1
  rw [addUnit_at, addf_apply, dropUnit_at]
  refine congrArg (fun s => s + v0 (ix3 (0 : Fin 1) n d)) ?_
  refine (Cert.LibPlainMatmul.matmul_zero_apply (a := 1024) (n := 256) (b := 256) none _ _ n d).trans ?_
  exact Finset.sum_congr rfl fun e _ => by rw [truncf_apply, truncf_apply, dense_tanh_at, dropUnit_at]

end Cert.Attn.Payload

end
-- ==== Proof.Region0.lean ====
/-
  What region 0 leaves in its output array, as one function of the contents it is entered with.

  Region 0 runs over a grid of 16 points, one per batch entry. At point `t` it is handed row `t` of the [16, 1024, 256]
  input (a [1, 1024, 256] block), the two transposed weights and the two bias rows WHOLE (their blocks do not move),
  and it writes block `t` of the [16, 256, 256] output: the blocks tile the output, one per batch entry. So the output
  array ends holding, at (b, e, d), the body's value computed from row `b` of the input.
-/
import proofs.«168025_j43911745634336_1_alg».proof.Proof.Gen.KernelIdeal.Frame
import proofs.«168025_j43911745634336_1_alg».proof.Proof.Payload
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The body's value at (b, e, d) from the five arrays: the two dense layers of row `b`, the product of the first
    transposed with the second, scaled. -/
def mEntry (x : S16x1024x256.Idx → EReal) (wg : S256x256.Idx → EReal) (βg : S1x256.Idx → EReal)
    (wv : S256x256.Idx → EReal) (βv : S1x256.Idx → EReal) (b : Fin 16) (e d : Fin 256) : EReal :=
  (∑ m : Fin 1024,
      Ideal.tanh ((∑ k : Fin 256, x (ix3 b m k) * wg (ix2 k e)) + βg (ix2 (0 : Fin 1) e))
    * Ideal.tanh ((∑ k : Fin 256, x (ix3 b m k) * wv (ix2 k d)) + βv (ix2 (0 : Fin 1) d)))
  * Ideal.ofBits .f32 0x3A800000#32

/-- The output array as one function of the region's entry contents. -/
def mArr (c : Dev nD) : S16x256x256.Idx → EReal := fun i =>
  mEntry (V c main_arg1) (V c main_v3) (V c main_v7) (V c main_v5) (V c main_v8) (i 0) (i 1) (i 2)

/-- The printed index maps, decided once over the grid: the input's and the output's blocks move with the point along
    the batch axis and nowhere else; the weights' and the bias rows' blocks do not move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- WHAT POINT `t` WRITES BACK is block `t` of `mArr`. -/
theorem flushed_eq (c : Dev nD) (t : Fin cfg0.N) :
    (dat0 V c).flushed 5 t = ((cfg0.win 5).blk t).view.read (Elt Ideal) (mArr V c) := by
  show (cfg0.win 5).cut (grid0.coords t) ((dat0 V c).after 5 t) = _
  rw [after0_5]
  unfold out0_5
  rw [View.canon_unit_zero hz3]
  simp only [View.ld_unit_zero (S := S1x1024x256) hz3, View.ld_unit_zero (S := S256x256) hz2,
    View.ld_unit_zero (S := S1x256) hz2]
  obtain ⟨a0, a1, a2, b0, b1, g0, g1, d0, d1, h0, h1, o0, o1, o2⟩ := idx_facts t
  refine funext fun (j : S1x256x256.Idx) => ?_
  obtain ⟨p, e, d, rfl⟩ : ∃ (p : Fin 1) (e d : Fin 256), j = ix3 p e d := ⟨j 0, j 1, j 2, eq_ix3 j⟩
  obtain rfl : p = 0 := Subsingleton.elim _ _
  refine (Cert.Attn.Payload.pay0_at _ _ _ _ _ e d).trans ?_
  -- each input block, read at a coordinate, is its array read where the output's rectangle says
  have hx : ∀ (m : Fin 1024) (k : Fin 256), iblk0 V c 0 t (ix3 (0 : Fin 1) m k)
      = V c main_arg1 (ix3 ((((cfg0.win 5).blk t).view.emb (ix3 (0 : Fin 1) e d)) 0 : Fin 16) m k) := fun m k => by
    show V c main_arg1 (((cfg0.win 0).blk t).view.emb (ix3 (0 : Fin 1) m k)) = _
    refine congrArg (V c main_arg1) (funext fun a => Fin.ext ?_)
    match a with
    | ⟨0, _⟩ => show win0_0.index t (0 : Fin 3) * 1 + 1 * 0 = win0_5.index t (0 : Fin 3) * 1 + 1 * 0; omega
    | ⟨1, _⟩ => show win0_0.index t (1 : Fin 3) * 1024 + 1 * m.val = m.val; omega
    | ⟨2, _⟩ => show win0_0.index t (2 : Fin 3) * 256 + 1 * k.val = k.val; omega
  have hwg : ∀ (k g : Fin 256), iblk0 V c 1 t (ix2 k g) = V c main_v3 (ix2 k g) := fun k g => by
    show V c main_v3 (((cfg0.win 1).blk t).view.emb (ix2 k g)) = _
    refine congrArg (V c main_v3) (funext fun a => Fin.ext ?_)
    match a with
    | ⟨0, _⟩ => show win0_1.index t (0 : Fin 2) * 256 + 1 * k.val = k.val; omega
    | ⟨1, _⟩ => show win0_1.index t (1 : Fin 2) * 256 + 1 * g.val = g.val; omega
  have hbg : ∀ (g : Fin 256), iblk0 V c 2 t (ix2 (0 : Fin 1) g) = V c main_v7 (ix2 (0 : Fin 1) g) := fun g => by
    show V c main_v7 (((cfg0.win 2).blk t).view.emb (ix2 (0 : Fin 1) g)) = _
    refine congrArg (V c main_v7) (funext fun a => Fin.ext ?_)
    match a with
    | ⟨0, _⟩ => show win0_2.index t (0 : Fin 2) * 1 + 1 * 0 = 0; omega
    | ⟨1, _⟩ => show win0_2.index t (1 : Fin 2) * 256 + 1 * g.val = g.val; omega
  have hwv : ∀ (k g : Fin 256), iblk0 V c 3 t (ix2 k g) = V c main_v5 (ix2 k g) := fun k g => by
    show V c main_v5 (((cfg0.win 3).blk t).view.emb (ix2 k g)) = _
    refine congrArg (V c main_v5) (funext fun a => Fin.ext ?_)
    match a with
    | ⟨0, _⟩ => show win0_3.index t (0 : Fin 2) * 256 + 1 * k.val = k.val; omega
    | ⟨1, _⟩ => show win0_3.index t (1 : Fin 2) * 256 + 1 * g.val = g.val; omega
  have hbv : ∀ (g : Fin 256), iblk0 V c 4 t (ix2 (0 : Fin 1) g) = V c main_v8 (ix2 (0 : Fin 1) g) := fun g => by
    show V c main_v8 (((cfg0.win 4).blk t).view.emb (ix2 (0 : Fin 1) g)) = _
    refine congrArg (V c main_v8) (funext fun a => Fin.ext ?_)
    match a with
    | ⟨0, _⟩ => show win0_4.index t (0 : Fin 2) * 1 + 1 * 0 = 0; omega
    | ⟨1, _⟩ => show win0_4.index t (1 : Fin 2) * 256 + 1 * g.val = g.val; omega
  have he : ((((cfg0.win 5).blk t).view.emb (ix3 (0 : Fin 1) e d)) 1 : Fin 256) = e := Fin.ext (by
    show win0_5.index t (1 : Fin 3) * 256 + 1 * e.val = e.val; omega)
  have hd : ((((cfg0.win 5).blk t).view.emb (ix3 (0 : Fin 1) e d)) 2 : Fin 256) = d := Fin.ext (by
    show win0_5.index t (2 : Fin 3) * 256 + 1 * d.val = d.val; omega)
  simp only [hx, hwg, hbg, hwv, hbv]
  show _ = mEntry (V c main_arg1) (V c main_v3) (V c main_v7) (V c main_v5) (V c main_v8)
    ((((cfg0.win 5).blk t).view.emb (ix3 (0 : Fin 1) e d)) 0 : Fin 16)
    ((((cfg0.win 5).blk t).view.emb (ix3 (0 : Fin 1) e d)) 1 : Fin 256)
    ((((cfg0.win 5).blk t).view.emb (ix3 (0 : Fin 1) e d)) 2 : Fin 256)
  rw [he, hd]
  rfl

/-- An index of the output array is in point `t`'s block iff each coordinate is in the block's range on its axis. -/
theorem mem_blk (t : Fin cfg0.N) (i : S16x256x256.Idx) :
    i ∈ ((cfg0.win 5).blk t).view.set ↔ ∀ a : Fin 3, win0_5.index t a * S1x256x256.size a ≤ (i a).val
      ∧ (i a).val < win0_5.index t a * S1x256x256.size a + S1x256x256.size a := by
  show i ∈ ((View.whole main_v9).slice (win0_5.rect t)).set ↔ _
  rw [View.set_slice_whole, Rect.mem_set_unit]
  exact Iff.rfl

/-- Every index of the output array is in some point's block: the point of its batch entry. -/
theorem cover (i : S16x256x256.Idx) :
    ∃ t : Fin cfg0.N, (cfg0.win 5).flush t = true ∧ i ∈ ((cfg0.win 5).blk t).view.set := by
  have hi0 : (i 0).val < 16 := (i 0).isLt
  have hi1 : (i 1).val < 256 := (i 1).isLt
  have hi2 : (i 2).val < 256 := (i 2).isLt
  refine ⟨⟨(i 0).val, hi0⟩, flush0_5 _, ?_⟩
  rw [mem_blk]
  obtain ⟨-, -, -, -, -, -, -, -, -, -, -, o0, o1, o2⟩ := idx_facts ⟨(i 0).val, hi0⟩
  intro a
  match a with
  | ⟨0, _⟩ =>
    show win0_5.index ⟨(i 0).val, hi0⟩ (0 : Fin 3) * 1 ≤ (i 0).val ∧ (i 0).val < win0_5.index ⟨(i 0).val, hi0⟩ (0 : Fin 3) * 1 + 1
    rw [o0]; show (i 0).val * 1 ≤ (i 0).val ∧ (i 0).val < (i 0).val * 1 + 1; omega
  | ⟨1, _⟩ =>
    show win0_5.index ⟨(i 0).val, hi0⟩ (1 : Fin 3) * 256 ≤ (i 1).val ∧ (i 1).val < win0_5.index ⟨(i 0).val, hi0⟩ (1 : Fin 3) * 256 + 256
    omega
  | ⟨2, _⟩ =>
    show win0_5.index ⟨(i 0).val, hi0⟩ (2 : Fin 3) * 256 ≤ (i 2).val ∧ (i 2).val < win0_5.index ⟨(i 0).val, hi0⟩ (2 : Fin 3) * 256 + 256
    omega

/-- THE ARRAY region 0 leaves: `mArr` of the contents it was entered with. -/
theorem final (c : Dev nD) : (dat0 V c).arrAt 5 cfg0.N = mArr V c :=
  (dat0 V c).arrAt_eq_of_cover 5 (mArr V c) (fun t _ => flushed_eq V c t) (cover)

end Cert.KernelIdeal.Region0

end
-- ==== Proof.Region1.lean ====
/-
  What region 1 leaves in its output array, as one function of the contents it is entered with.

  Region 1 runs over a grid of 16 × 4 points: point `t` is batch entry `t / 4` and row tile `t % 4`. It is handed tile
  `t % 4` of row `t / 4` of the [16, 4096, 256] input (a [1, 1024, 256] block), the transposed weight and the bias row
  WHOLE, and block `t / 4` of the [16, 256, 256] array region 0 left; it writes the block of the [16, 4096, 256] output
  at the same place as its input block. The 64 blocks tile the output. So the output array ends holding, at
  (b, n, d), the body's value computed from row (b, n) of the input and block `b` of the small array.
-/
import proofs.«168025_j43911745634336_1_alg».proof.Proof.Gen.KernelIdeal.Frame
import proofs.«168025_j43911745634336_1_alg».proof.Proof.Payload
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The body's value at (b, n, d) from the four arrays: the dense layer of row (b, n), times block `b` of the small
    array, plus the input. -/
def oEntry (x : S16x4096x256.Idx → EReal) (wl : S256x256.Idx → EReal) (βl : S1x256.Idx → EReal)
    (M : S16x256x256.Idx → EReal) (b : Fin 16) (n : Fin 4096) (d : Fin 256) : EReal :=
  (∑ e : Fin 256,
      Ideal.tanh ((∑ k : Fin 256, x (ix3 b n k) * wl (ix2 k e)) + βl (ix2 (0 : Fin 1) e)) * M (ix3 b e d))
  + x (ix3 b n d)

/-- The output array as one function of the region's entry contents. -/
def oArr (c : Dev nD) : S16x4096x256.Idx → EReal := fun i =>
  oEntry (V c main_arg0) (V c main_v1) (V c main_v6) (V c main_v9) (i 0) (i 1) (i 2)

/-- The printed index maps, decided once over the grid. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 4 ∧ win1_3.index t (1 : Fin 3) = 0 ∧ win1_3.index t (2 : Fin 3) = 0
    ∧ win1_4.index t (0 : Fin 3) = t.val / 4 ∧ win1_4.index t (1 : Fin 3) = t.val % 4 ∧ win1_4.index t (2 : Fin 3) = 0 :=
  (by decide +kernel : ∀ t : Fin grid1.N, _)

/-- WHAT POINT `t` WRITES BACK is block `t` of `oArr`. -/
theorem flushed_eq (c : Dev nD) (t : Fin cfg1.N) :
    (dat1 V c).flushed 4 t = ((cfg1.win 4).blk t).view.read (Elt Ideal) (oArr V c) := by
  show (cfg1.win 4).cut (grid1.coords t) ((dat1 V c).after 4 t) = _
  rw [after1_4]
  unfold out1_4
  rw [View.canon_unit_zero hz3]
  simp only [View.ld_unit_zero (S := S1x1024x256) hz3, View.ld_unit_zero (S := S256x256) hz2,
    View.ld_unit_zero (S := S1x256) hz2, View.ld_unit_zero (S := S1x256x256) hz3]
  obtain ⟨a0, a1, a2, b0, b1, g0, g1, s0, s1, s2, o0, o1, o2⟩ := idx_facts t
  refine funext fun (j : S1x1024x256.Idx) => ?_
  obtain ⟨p, r, d, rfl⟩ : ∃ (p : Fin 1) (r : Fin 1024) (d : Fin 256), j = ix3 p r d := ⟨j 0, j 1, j 2, eq_ix3 j⟩
  obtain rfl : p = 0 := Subsingleton.elim _ _
  refine (Cert.Attn.Payload.pay1_at _ _ _ _ r d).trans ?_
  have hx : ∀ (k : Fin 256), iblk1 V c 0 t (ix3 (0 : Fin 1) r k)
      = V c main_arg0 (ix3 ((((cfg1.win 4).blk t).view.emb (ix3 (0 : Fin 1) r d)) 0 : Fin 16)
          ((((cfg1.win 4).blk t).view.emb (ix3 (0 : Fin 1) r d)) 1 : Fin 4096) k) := fun k => by
    show V c main_arg0 (((cfg1.win 0).blk t).view.emb (ix3 (0 : Fin 1) r k)) = _
    refine congrArg (V c main_arg0) (funext fun a => Fin.ext ?_)
    match a with
    | ⟨0, _⟩ => show win1_0.index t (0 : Fin 3) * 1 + 1 * 0 = win1_4.index t (0 : Fin 3) * 1 + 1 * 0; omega
    | ⟨1, _⟩ => show win1_0.index t (1 : Fin 3) * 1024 + 1 * r.val = win1_4.index t (1 : Fin 3) * 1024 + 1 * r.val; omega
    | ⟨2, _⟩ => show win1_0.index t (2 : Fin 3) * 256 + 1 * k.val = k.val; omega
  have hwl : ∀ (k g : Fin 256), iblk1 V c 1 t (ix2 k g) = V c main_v1 (ix2 k g) := fun k g => by
    show V c main_v1 (((cfg1.win 1).blk t).view.emb (ix2 k g)) = _
    refine congrArg (V c main_v1) (funext fun a => Fin.ext ?_)
    match a with
    | ⟨0, _⟩ => show win1_1.index t (0 : Fin 2) * 256 + 1 * k.val = k.val; omega
    | ⟨1, _⟩ => show win1_1.index t (1 : Fin 2) * 256 + 1 * g.val = g.val; omega
  have hbl : ∀ (g : Fin 256), iblk1 V c 2 t (ix2 (0 : Fin 1) g) = V c main_v6 (ix2 (0 : Fin 1) g) := fun g => by
    show V c main_v6 (((cfg1.win 2).blk t).view.emb (ix2 (0 : Fin 1) g)) = _
    refine congrArg (V c main_v6) (funext fun a => Fin.ext ?_)
    match a with
    | ⟨0, _⟩ => show win1_2.index t (0 : Fin 2) * 1 + 1 * 0 = 0; omega
    | ⟨1, _⟩ => show win1_2.index t (1 : Fin 2) * 256 + 1 * g.val = g.val; omega
  have hM : ∀ (e g : Fin 256), iblk1 V c 3 t (ix3 (0 : Fin 1) e g)
      = V c main_v9 (ix3 ((((cfg1.win 4).blk t).view.emb (ix3 (0 : Fin 1) r d)) 0 : Fin 16) e g) := fun e g => by
    show V c main_v9 (((cfg1.win 3).blk t).view.emb (ix3 (0 : Fin 1) e g)) = _
    refine congrArg (V c main_v9) (funext fun a => Fin.ext ?_)
    match a with
    | ⟨0, _⟩ => show win1_3.index t (0 : Fin 3) * 1 + 1 * 0 = win1_4.index t (0 : Fin 3) * 1 + 1 * 0; omega
    | ⟨1, _⟩ => show win1_3.index t (1 : Fin 3) * 256 + 1 * e.val = e.val; omega
    | ⟨2, _⟩ => show win1_3.index t (2 : Fin 3) * 256 + 1 * g.val = g.val; omega
  have hd : ((((cfg1.win 4).blk t).view.emb (ix3 (0 : Fin 1) r d)) 2 : Fin 256) = d := Fin.ext (by
    show win1_4.index t (2 : Fin 3) * 256 + 1 * d.val = d.val; omega)
  simp only [hx, hwl, hbl, hM]
  show _ = oEntry (V c main_arg0) (V c main_v1) (V c main_v6) (V c main_v9)
    ((((cfg1.win 4).blk t).view.emb (ix3 (0 : Fin 1) r d)) 0 : Fin 16)
    ((((cfg1.win 4).blk t).view.emb (ix3 (0 : Fin 1) r d)) 1 : Fin 4096)
    ((((cfg1.win 4).blk t).view.emb (ix3 (0 : Fin 1) r d)) 2 : Fin 256)
  rw [hd]
  rfl

/-- An index of the output array is in point `t`'s block iff each coordinate is in the block's range on its axis. -/
theorem mem_blk (t : Fin cfg1.N) (i : S16x4096x256.Idx) :
    i ∈ ((cfg1.win 4).blk t).view.set ↔ ∀ a : Fin 3, win1_4.index t a * S1x1024x256.size a ≤ (i a).val
      ∧ (i a).val < win1_4.index t a * S1x1024x256.size a + S1x1024x256.size a := by
  show i ∈ ((View.whole main_v10).slice (win1_4.rect t)).set ↔ _
  rw [View.set_slice_whole, Rect.mem_set_unit]
  exact Iff.rfl

/-- Every index of the output array is in some point's block: the point of its batch entry and row tile. -/
theorem cover (i : S16x4096x256.Idx) :
    ∃ t : Fin cfg1.N, (cfg1.win 4).flush t = true ∧ i ∈ ((cfg1.win 4).blk t).view.set := by
  have hi0 : (i 0).val < 16 := (i 0).isLt
  have hi1 : (i 1).val < 4096 := (i 1).isLt
  have hi2 : (i 2).val < 256 := (i 2).isLt
  obtain ⟨T, hT⟩ : ∃ T : ℕ, T = (i 0).val * 4 + (i 1).val / 1024 := ⟨_, rfl⟩
  have hlt : T < 64 := by omega
  refine ⟨⟨T, hlt⟩, flush1_4 _, ?_⟩
  rw [mem_blk]
  obtain ⟨-, -, -, -, -, -, -, -, -, -, o0, o1, o2⟩ := idx_facts ⟨T, hlt⟩
  have o0' : win1_4.index ⟨T, hlt⟩ (0 : Fin 3) = T / 4 := o0
  have o1' : win1_4.index ⟨T, hlt⟩ (1 : Fin 3) = T % 4 := o1
  intro a
  match a with
  | ⟨0, _⟩ =>
    show win1_4.index ⟨T, hlt⟩ (0 : Fin 3) * 1 ≤ (i 0).val ∧ (i 0).val < win1_4.index ⟨T, hlt⟩ (0 : Fin 3) * 1 + 1
    omega
  | ⟨1, _⟩ =>
    show win1_4.index ⟨T, hlt⟩ (1 : Fin 3) * 1024 ≤ (i 1).val ∧ (i 1).val < win1_4.index ⟨T, hlt⟩ (1 : Fin 3) * 1024 + 1024
    omega
  | ⟨2, _⟩ =>
    show win1_4.index ⟨T, hlt⟩ (2 : Fin 3) * 256 ≤ (i 2).val ∧ (i 2).val < win1_4.index ⟨T, hlt⟩ (2 : Fin 3) * 256 + 256
    omega

/-- THE ARRAY region 1 leaves: `oArr` of the contents it was entered with. -/
theorem final (c : Dev nD) : (dat1 V c).arrAt 4 cfg1.N = oArr V c :=
  (dat1 V c).arrAt_eq_of_cover 4 (oArr V c) (fun t _ => flushed_eq V c t) (cover)

end Cert.KernelIdeal.Region1

end
-- ==== Proof.HostPrefix.lean ====
import proofs.«168025_j43911745634336_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

set_option maxRecDepth 16384

/-
  The buffer contents with which the two pipelined regions are entered, read back to the launch arrays.

  Before the first region nine host operations run: each of the three weight matrices is transposed and changed to a
  narrower format (on extended reals the change of format is the identity), and each of the three bias vectors of 256
  entries is made a row of one line. So at entry (k, e) a weight buffer holds the launch matrix at (e, k), and at
  entry (0, e) a bias buffer holds the launch vector at e. No host operation writes an argument, and the first region
  leaves alone every buffer it has no window on, so the second region finds those as the first one did.
-/
noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## Region 0's entry contents: the launch memory after the nine host operations -/

/-- No host operation writes an argument: on entry to region 0 the buffer of argument 0 holds the launch array. -/
theorem V1_arg0 (c : Dev nD) :
    (V1 (F := Ideal) m ρ c main_arg0 : FVec Ideal S16x4096x256 .f32)
      = (m ((c : Thread nD τ).loc main_arg0) : FVec Ideal S16x4096x256 .f32) := by
  dsimp only [V1, W1, hostOps0]
  after_results

/-- No host operation writes an argument: on entry to region 0 the buffer of argument 1 holds the launch array. -/
theorem V1_arg1 (c : Dev nD) :
    (V1 (F := Ideal) m ρ c main_arg1 : FVec Ideal S16x1024x256 .f32)
      = (m ((c : Thread nD τ).loc main_arg1) : FVec Ideal S16x1024x256 .f32) := by
  dsimp only [V1, W1, hostOps0]
  after_results

/-- On entry to region 0 the first weight buffer holds the transpose of launch array 2, changed to the narrower
    format (which on extended reals changes nothing). -/
theorem V1_v1 (c : Dev nD) :
    (V1 (F := Ideal) m ρ c main_v1 : FVec Ideal S256x256 .bf16)
      = (truncf (F := Ideal) .bf16 (transpose S256x256 [1, 0]
          (m ((c : Thread nD τ).loc main_arg2) : FVec Ideal S256x256 .f32)
          transposes_S256x256_S256x256_1_0) bitsLt_bf16_f32 : FVec Ideal S256x256 .bf16) := by
  dsimp only [V1, W1, hostOps0]
  after_results

/-- On entry to region 0 the second weight buffer holds the transpose of launch array 4, changed to the narrower
    format. -/
theorem V1_v3 (c : Dev nD) :
    (V1 (F := Ideal) m ρ c main_v3 : FVec Ideal S256x256 .bf16)
      = (truncf (F := Ideal) .bf16 (transpose S256x256 [1, 0]
          (m ((c : Thread nD τ).loc main_arg4) : FVec Ideal S256x256 .f32)
          transposes_S256x256_S256x256_1_0) bitsLt_bf16_f32 : FVec Ideal S256x256 .bf16) := by
  dsimp only [V1, W1, hostOps0]
  after_results

/-- On entry to region 0 the third weight buffer holds the transpose of launch array 6, changed to the narrower
    format. -/
theorem V1_v5 (c : Dev nD) :
    (V1 (F := Ideal) m ρ c main_v5 : FVec Ideal S256x256 .bf16)
      = (truncf (F := Ideal) .bf16 (transpose S256x256 [1, 0]
          (m ((c : Thread nD τ).loc main_arg6) : FVec Ideal S256x256 .f32)
          transposes_S256x256_S256x256_1_0) bitsLt_bf16_f32 : FVec Ideal S256x256 .bf16) := by
  dsimp only [V1, W1, hostOps0]
  after_results

/-- On entry to region 0 the first bias buffer holds launch vector 3 made a row of one line. -/
theorem V1_v6 (c : Dev nD) :
    (V1 (F := Ideal) m ρ c main_v6 : FVec Ideal S1x256 .f32)
      = (shapeCast S1x256 (m ((c : Thread nD τ).loc main_arg3) : FVec Ideal S256 .f32)
          shapeCasts_S256_S1x256 : FVec Ideal S1x256 .f32) := by
  dsimp only [V1, W1, hostOps0]
  after_results
  rfl

/-- On entry to region 0 the second bias buffer holds launch vector 5 made a row of one line. -/
theorem V1_v7 (c : Dev nD) :
    (V1 (F := Ideal) m ρ c main_v7 : FVec Ideal S1x256 .f32)
      = (shapeCast S1x256 (m ((c : Thread nD τ).loc main_arg5) : FVec Ideal S256 .f32)
          shapeCasts_S256_S1x256 : FVec Ideal S1x256 .f32) := by
  dsimp only [V1, W1, hostOps0]
  after_results
  rfl

/-- On entry to region 0 the third bias buffer holds launch vector 7 made a row of one line. -/
theorem V1_v8 (c : Dev nD) :
    (V1 (F := Ideal) m ρ c main_v8 : FVec Ideal S1x256 .f32)
      = (shapeCast S1x256 (m ((c : Thread nD τ).loc main_arg7) : FVec Ideal S256 .f32)
          shapeCasts_S256_S1x256 : FVec Ideal S1x256 .f32) := by
  dsimp only [V1, W1, hostOps0]
  after_results
  rfl

/-! ## The same contents read at an entry -/

/-- The transpose of a square matrix, changed to a narrower format, at entry (k, e) is the matrix at (e, k). -/
theorem truncf_transpose_at (W : FVec Ideal S256x256 .f32) (k e : Fin 256) :
    (truncf (F := Ideal) .bf16 (transpose S256x256 [1, 0] W transposes_S256x256_S256x256_1_0)
        bitsLt_bf16_f32 : FVec Ideal S256x256 .bf16) (ix2 k e) = W (ix2 e k) :=
  (truncf_apply (φ := .f32) (ψ := .bf16) (transpose S256x256 [1, 0] W transposes_S256x256_S256x256_1_0)
      bitsLt_bf16_f32 (ix2 k e)).trans
    (transpose_apply [1, 0] W transposes_S256x256_S256x256_1_0 (ix2 k e) (ix2 e k) (fun b => match b with
      | ⟨0, _⟩ => rfl
      | ⟨1, _⟩ => rfl))

/-- A vector of 256 entries made a row of one line, at entry (0, e), is the vector at e. -/
theorem row_at (x : FVec Ideal S256 .f32) (e : Fin 256) :
    (shapeCast S1x256 x shapeCasts_S256_S1x256 : FVec Ideal S1x256 .f32) (ix2 (0 : Fin 1) e) = x (ix1 e) :=
  shapeCast_apply x shapeCasts_S256_S1x256 (ix2 (0 : Fin 1) e) (ix1 e) (by
    rw [Shape.rowMajor_val_one, Shape.rowMajor_val_two]
    show e.val = 0 * 256 + e.val
    omega)

/-- Region 0 is entered with the second weight buffer holding, at (k, e), launch array 4 at (e, k). -/
theorem V1_v3_at (c : Dev nD) (k e : Fin 256) :
    (V1 (F := Ideal) m ρ c main_v3 : FVec Ideal S256x256 .bf16) (ix2 k e)
      = (m ((c : Thread nD τ).loc main_arg4) : FVec Ideal S256x256 .f32) (ix2 e k) :=
  (congrFun (V1_v3 m ρ c) (ix2 k e)).trans (truncf_transpose_at _ k e)

/-- Region 0 is entered with the third weight buffer holding, at (k, e), launch array 6 at (e, k). -/
theorem V1_v5_at (c : Dev nD) (k e : Fin 256) :
    (V1 (F := Ideal) m ρ c main_v5 : FVec Ideal S256x256 .bf16) (ix2 k e)
      = (m ((c : Thread nD τ).loc main_arg6) : FVec Ideal S256x256 .f32) (ix2 e k) :=
  (congrFun (V1_v5 m ρ c) (ix2 k e)).trans (truncf_transpose_at _ k e)

/-- Region 0 is entered with the second bias buffer holding, at (0, e), launch vector 5 at e. -/
theorem V1_v7_at (c : Dev nD) (e : Fin 256) :
    (V1 (F := Ideal) m ρ c main_v7 : FVec Ideal S1x256 .f32) (ix2 (0 : Fin 1) e)
      = (m ((c : Thread nD τ).loc main_arg5) : FVec Ideal S256 .f32) (ix1 e) :=
  (congrFun (V1_v7 m ρ c) (ix2 (0 : Fin 1) e)).trans (row_at _ e)

/-- Region 0 is entered with the third bias buffer holding, at (0, e), launch vector 7 at e. -/
theorem V1_v8_at (c : Dev nD) (e : Fin 256) :
    (V1 (F := Ideal) m ρ c main_v8 : FVec Ideal S1x256 .f32) (ix2 (0 : Fin 1) e)
      = (m ((c : Thread nD τ).loc main_arg7) : FVec Ideal S256 .f32) (ix1 e) :=
  (congrFun (V1_v8 m ρ c) (ix2 (0 : Fin 1) e)).trans (row_at _ e)

/-! ## Region 1's entry contents at the buffers region 0 leaves alone -/

/-- Region 0 has no window on argument 0, so region 1 is entered with that buffer still holding the launch array. -/
theorem V2_arg0 (c : Dev nD) :
    (V2 (F := Ideal) m ρ c main_arg0 : FVec Ideal S16x4096x256 .f32)
      = (m ((c : Thread nD τ).loc main_arg0) : FVec Ideal S16x4096x256 .f32) :=
  (W2_of_ne m ρ c main_arg0 (by decide)).trans (V1_arg0 m ρ c)

/-- Region 0 has no window on the first weight buffer, so region 1 is entered with it holding, at (k, e), launch
    array 2 at (e, k). -/
theorem V2_v1_at (c : Dev nD) (k e : Fin 256) :
    (V2 (F := Ideal) m ρ c main_v1 : FVec Ideal S256x256 .bf16) (ix2 k e)
      = (m ((c : Thread nD τ).loc main_arg2) : FVec Ideal S256x256 .f32) (ix2 e k) :=
  (congrFun ((W2_of_ne m ρ c main_v1 (by decide)).trans (V1_v1 m ρ c)) (ix2 k e)).trans (truncf_transpose_at _ k e)

/-- Region 0 has no window on the first bias buffer, so region 1 is entered with it holding, at (0, e), launch
    vector 3 at e. -/
theorem V2_v6_at (c : Dev nD) (e : Fin 256) :
    (V2 (F := Ideal) m ρ c main_v6 : FVec Ideal S1x256 .f32) (ix2 (0 : Fin 1) e)
      = (m ((c : Thread nD τ).loc main_arg3) : FVec Ideal S256 .f32) (ix1 e) :=
  (congrFun ((W2_of_ne m ρ c main_v6 (by decide)).trans (V1_v6 m ρ c)) (ix2 (0 : Fin 1) e)).trans (row_at _ e)

end Cert.KernelIdeal.HostPrefix
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.Spec.lean ====
/-
  The specification both programs meet, index by index on the extended reals, and the law that joins them.

  A dense layer with a hyperbolic tangent: for an input `x` of shape [B, N, 256], a weight `W` of shape [256, 256]
  stored one row per output unit, and a bias `β` of shape [256],
      act x W β (b, n, e) = tanh (Σₖ x (b, n, k) · W (e, k) + β e).
  Write l = act local Wl bl, g = act raw_global Wg bg, v = act raw_global Wv bv.

  The reference forms the [N, M] matrix of scores first and divides it by M = 1024:
      refOut (b, n, d) = Σₘ ((Σₑ l (b, n, e) · g (b, m, e)) / 1024) · v (b, m, d) + local (b, n, d).
  The kernel forms the small [256, 256] matrix first, scaled by the constant 2⁻¹⁰ = 1/1024:
      mOut (b, e, d)   = (Σₘ g (b, m, e) · v (b, m, d)) · 2⁻¹⁰,
      kerOut (b, n, d) = Σₑ l (b, n, e) · mOut (b, e, d) + local (b, n, d).
  The two agree when every input is a real number: a hyperbolic tangent of a real is a real, so l, g and v are real,
  and over the reals the constant distributes over the sums and the two finite sums commute. (With an infinite entry the
  distributive step is false on the extended reals, which is why the law takes the inputs real.)
-/
import Idealize.ShloMosaic.PureOps.Ideal
import Idealize.ShloMosaic.Lib.ValueIdx
import proofs.«168025_j43911745634336_1_alg».proof.Proof.LibRealLaw

noncomputable section

open scoped BigOperators

namespace Cert.Attn.Spec

open Idealize.ShloMosaic Idealize.ShloMosaic.ValueIdx Cert.Attn.RealLaw

/-- One dense layer with a hyperbolic tangent, at entry `(b, n, e)`: `tanh (Σₖ x (b, n, k) · W (e, k) + β e)`. -/
def act (B N : ℕ) (x : (⟨3, ![B, N, 256]⟩ : Shape).Idx → EReal) (W : (⟨2, ![256, 256]⟩ : Shape).Idx → EReal)
    (β : (⟨1, ![256]⟩ : Shape).Idx → EReal) (b : Fin B) (n : Fin N) (e : Fin 256) : EReal :=
  Ideal.tanh ((∑ k : Fin 256, x (ix3 b n k) * W (ix2 e k)) + β (ix1 e))

/-- A dense layer's entry is a real when the input, the weight and the bias are. -/
theorem isReal_act {B N : ℕ} {x : (⟨3, ![B, N, 256]⟩ : Shape).Idx → EReal} {W : (⟨2, ![256, 256]⟩ : Shape).Idx → EReal}
    {β : (⟨1, ![256]⟩ : Shape).Idx → EReal} (hx : ∀ i, IsReal (x i)) (hW : ∀ i, IsReal (W i)) (hβ : ∀ i, IsReal (β i))
    (b : Fin B) (n : Fin N) (e : Fin 256) : IsReal (act B N x W β b n e) :=
  isReal_tanh (isReal_add (isReal_sum_mul (fun _ => hx _) (fun _ => hW _)) (hβ _))

variable (x0 : (⟨3, ![16, 4096, 256]⟩ : Shape).Idx → EReal) (x1 : (⟨3, ![16, 1024, 256]⟩ : Shape).Idx → EReal)
  (Wl : (⟨2, ![256, 256]⟩ : Shape).Idx → EReal) (bl : (⟨1, ![256]⟩ : Shape).Idx → EReal)
  (Wg : (⟨2, ![256, 256]⟩ : Shape).Idx → EReal) (bg : (⟨1, ![256]⟩ : Shape).Idx → EReal)
  (Wv : (⟨2, ![256, 256]⟩ : Shape).Idx → EReal) (bv : (⟨1, ![256]⟩ : Shape).Idx → EReal)

/-- The reference's result at `(b, n, d)`: the scores divided by 1024, then weighted by `v`, plus the input. -/
def refOut (b : Fin 16) (n : Fin 4096) (d : Fin 256) : EReal :=
  (∑ m : Fin 1024, Ideal.div (∑ e : Fin 256, act 16 4096 x0 Wl bl b n e * act 16 1024 x1 Wg bg b m e)
      (Ideal.ofBits .f32 0x44800000#32) * act 16 1024 x1 Wv bv b m d) + x0 (ix3 b n d)

/-- The kernel's first region leaves, at `(b, e, d)`, the scaled product of `g` transposed with `v`. -/
def mOut (b : Fin 16) (e : Fin 256) (d : Fin 256) : EReal :=
  (∑ m : Fin 1024, act 16 1024 x1 Wg bg b m e * act 16 1024 x1 Wv bv b m d) * Ideal.ofBits .f32 0x3A800000#32

/-- The kernel's result at `(b, n, d)`: `l` times the small matrix, plus the input. -/
def kerOut (b : Fin 16) (n : Fin 4096) (d : Fin 256) : EReal :=
  (∑ e : Fin 256, act 16 4096 x0 Wl bl b n e * mOut x1 Wg bg Wv bv b e d) + x0 (ix3 b n d)

/-- THE LAW: on real inputs the reference's result is the kernel's, entry by entry. -/
theorem ref_eq_ker (h0 : ∀ i, IsReal (x0 i)) (h1 : ∀ i, IsReal (x1 i)) (hWl : ∀ i, IsReal (Wl i)) (hbl : ∀ i, IsReal (bl i))
    (hWg : ∀ i, IsReal (Wg i)) (hbg : ∀ i, IsReal (bg i)) (hWv : ∀ i, IsReal (Wv i)) (hbv : ∀ i, IsReal (bv i))
    (b : Fin 16) (n : Fin 4096) (d : Fin 256) :
    refOut x0 x1 Wl bl Wg bg Wv bv b n d = kerOut x0 x1 Wl bl Wg bg Wv bv b n d := by
  unfold refOut kerOut mOut
  rw [lit_1024, inv_1024]
  exact reassoc_add (fun e => act 16 4096 x0 Wl bl b n e) (fun m e => act 16 1024 x1 Wg bg b m e)
    (fun m => act 16 1024 x1 Wv bv b m d)
    (fun e => isReal_act h0 hWl hbl b n e) (fun m e => isReal_act h1 hWg hbg b m e)
    (fun m => isReal_act h1 hWv hbv b m d) (x0 (ix3 b n d))

end Cert.Attn.Spec

end
-- ==== Proof.KValue.lean ====
/-
  The idealized kernel's result, as one function of its eight argument arrays.

  The result buffer ends at what region 1's write-backs leave, which is the body's value computed from the contents
  region 1 is entered with: the input array as launched, the first weight transposed, the first bias as a row, and the
  small array region 0 left. That small array is in turn the body's value computed from the contents region 0 is
  entered with: the second input array as launched, the other two weights transposed and the other two biases as rows.
  Reading each transposed weight at (k, e) as the launch weight at (e, k), and each bias row at (0, e) as the launch
  bias at e, the result at (b, n, d) is
      Σₑ l (b, n, e) · ((Σₘ g (b, m, e) · v (b, m, d)) · 2⁻¹⁰) + local (b, n, d)
  with l, g, v the three dense layers with a hyperbolic tangent of the specification.
-/
import proofs.«168025_j43911745634336_1_alg».proof.Proof.KRun
import proofs.«168025_j43911745634336_1_alg».proof.Proof.Region0
import proofs.«168025_j43911745634336_1_alg».proof.Proof.Region1
import proofs.«168025_j43911745634336_1_alg».proof.Proof.HostPrefix
import proofs.«168025_j43911745634336_1_alg».proof.Proof.Spec

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem Cert.Attn.Spec

variable (m : (ℓ : Loc nD τ sig) → Buf (Elt Ideal) ℓ) (ρ : Dev nD → PrngReg)

/-- The small array region 1 is entered with, at (b, e, d): the specification's `mOut` of the launch arrays. -/
theorem small_array (c : Dev nD) (b : Fin 16) (e d : Fin 256) :
    (V2 (F := Ideal) m ρ c main_v9 : FVec Ideal S16x256x256 .f32) (ix3 b e d)
      = mOut (m ((c : Thread nD τ).loc main_arg1)) (m ((c : Thread nD τ).loc main_arg4))
          (m ((c : Thread nD τ).loc main_arg5)) (m ((c : Thread nD τ).loc main_arg6))
          (m ((c : Thread nD τ).loc main_arg7)) b e d := by
  rw [Cert.KernelIdeal.Result.entry1_v9 (F := Ideal) m ρ c, Cert.KernelIdeal.Region0.final]
  show Cert.KernelIdeal.Region0.mEntry (V1 (F := Ideal) m ρ c main_arg1) (V1 (F := Ideal) m ρ c main_v3)
    (V1 (F := Ideal) m ρ c main_v7) (V1 (F := Ideal) m ρ c main_v5) (V1 (F := Ideal) m ρ c main_v8) b e d = _
  unfold Cert.KernelIdeal.Region0.mEntry mOut act
  -- the five buffers as the host operations left them, then each transposed weight and bias row read at its entry
  rw [Cert.KernelIdeal.HostPrefix.V1_arg1 m ρ c, Cert.KernelIdeal.HostPrefix.V1_v3 m ρ c,
    Cert.KernelIdeal.HostPrefix.V1_v5 m ρ c, Cert.KernelIdeal.HostPrefix.V1_v7 m ρ c,
    Cert.KernelIdeal.HostPrefix.V1_v8 m ρ c, Cert.KernelIdeal.HostPrefix.row_at, Cert.KernelIdeal.HostPrefix.row_at]
  refine congrArg (fun s => s * Ideal.ofBits .f32 0x3A800000#32) (Finset.sum_congr rfl fun x _ => ?_)
  refine congrArg₂ (fun p q => Ideal.tanh (p + m ((c : Thread nD τ).loc main_arg5) (ix1 e))
      * Ideal.tanh (q + m ((c : Thread nD τ).loc main_arg7) (ix1 d))) ?_ ?_
  · exact Finset.sum_congr rfl fun k _ => by rw [Cert.KernelIdeal.HostPrefix.truncf_transpose_at]
  · exact Finset.sum_congr rfl fun k _ => by rw [Cert.KernelIdeal.HostPrefix.truncf_transpose_at]

/-- THE KERNEL'S RESULT: the last boundary's contents at the result buffer are the specification's `kerOut` of the
    launch arrays, entry by entry. -/
theorem kernel_value (c : Dev nD) :
    W3 (F := Ideal) m ρ c (Proc.devRef .tc main_v10)
      = (fun i : S16x4096x256.Idx => kerOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (i 0) (i 1) (i 2)) := by
  rw [Cert.KernelIdeal.Result.result_eq_arrAt (F := Ideal) m ρ c, Cert.KernelIdeal.Region1.final]
  funext i
  obtain ⟨b, n, d, rfl⟩ : ∃ (b : Fin 16) (n : Fin 4096) (d : Fin 256), i = ix3 b n d := ⟨i 0, i 1, i 2, eq_ix3 i⟩
  show Cert.KernelIdeal.Region1.oEntry (V2 (F := Ideal) m ρ c main_arg0) (V2 (F := Ideal) m ρ c main_v1)
    (V2 (F := Ideal) m ρ c main_v6) (V2 (F := Ideal) m ρ c main_v9) b n d
    = kerOut (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) b n d
  unfold Cert.KernelIdeal.Region1.oEntry kerOut act
  rw [Cert.KernelIdeal.HostPrefix.V2_arg0 m ρ c]
  refine congrArg (fun s => s + m ((c : Thread nD τ).loc main_arg0) (ix3 b n d)) (Finset.sum_congr rfl fun e _ => ?_)
  rw [small_array m ρ c b e d, Cert.KernelIdeal.HostPrefix.V2_v6_at m ρ c e]
  refine congrArg (fun p => Ideal.tanh (p + m ((c : Thread nD τ).loc main_arg3) (ix1 e))
      * mOut (m ((c : Thread nD τ).loc main_arg1)) (m ((c : Thread nD τ).loc main_arg4))
          (m ((c : Thread nD τ).loc main_arg5)) (m ((c : Thread nD τ).loc main_arg6))
          (m ((c : Thread nD τ).loc main_arg7)) b e d) (Finset.sum_congr rfl fun k _ => ?_)
  rw [Cert.KernelIdeal.HostPrefix.V2_v1_at m ρ c k e]

end Cert.KernelIdeal.KValue

end
-- ==== Proof.RefSpec.lean ====
/- The reference program, read index by index on the extended reals, is the specification `refOut`.

   The reference computes three dense layers with a hyperbolic tangent,
       l = tanh (x0 · Wlᵀ + bl),   g = tanh (x1 · Wgᵀ + bg),   v = tanh (x1 · Wvᵀ + bv),
   then the scores `Σₑ l (b, n, e) · g (b, m, e)`, divides them by the literal `1024`, contracts the
   quotient with `v` over `m`, and adds the input `x0`.  Each operation of the program reads its
   operands at indices computed from the result's index; at an index given by its coordinates
   `(b, n, d)` those computed indices are again indices given by coordinates.  Rewriting the
   operations one after the other, from the last to the first, and identifying the indices, leaves
   exactly the formula `refOut`. -/
import proofs.«168025_j43911745634336_1_alg».proof.Proof.Gen.ReferenceIdeal.Read
import proofs.«168025_j43911745634336_1_alg».proof.Proof.Spec

noncomputable section

open Idealize.ShloMosaic

namespace Cert.Attn.RefSpec

open Cert.ReferenceIdeal Cert.ReferenceIdeal.Read Idealize.ShloMosaic.ValueIdx Cert.Attn.Spec

/-! ### The operand indices at an index given by its coordinates -/

section Indices

/-- A dense layer over the `[16, 4096, 256]` input reads, for the entry `(b, n, e)` and the
    contracted position `k`, the input at `(b, n, k)`. -/
theorem lidx_v0 (b : Fin 16) (n : Fin 4096) (e k : Fin 256) :
    lidx_main_v0 (ix3 b n e) k = ix3 b n k :=
  funext fun a => Fin.ext (by match a with | ⟨0, _⟩ => rfl | ⟨1, _⟩ => rfl | ⟨2, _⟩ => rfl)

/-- … and the weight at `(e, k)`: one row of the weight per output unit. -/
theorem ridx_v0 (b : Fin 16) (n : Fin 4096) (e k : Fin 256) :
    ridx_main_v0 (ix3 b n e) k = ix2 e k :=
  funext fun a => Fin.ext (by match a with | ⟨0, _⟩ => rfl | ⟨1, _⟩ => rfl)

/-- The bias broadcast to `[16, 4096, 256]` reads, for the entry `(b, n, e)`, the bias at `e`. -/
theorem idx_v1_v2 (b : Fin 16) (n : Fin 4096) (e : Fin 256) :
    idx_main_v1 (idx_main_v2 (ix3 b n e)) = ix1 e :=
  funext fun a => Fin.ext (by match a with | ⟨0, _⟩ => rfl)

/-- A dense layer over the `[16, 1024, 256]` input reads, for the entry `(b, m, e)` and the
    contracted position `k`, the input at `(b, m, k)` (the layer of `g`). -/
theorem lidx_v5 (b : Fin 16) (m : Fin 1024) (e k : Fin 256) :
    lidx_main_v5 (ix3 b m e) k = ix3 b m k :=
  funext fun a => Fin.ext (by match a with | ⟨0, _⟩ => rfl | ⟨1, _⟩ => rfl | ⟨2, _⟩ => rfl)

/-- … and the weight at `(e, k)` (the layer of `g`). -/
theorem ridx_v5 (b : Fin 16) (m : Fin 1024) (e k : Fin 256) :
    ridx_main_v5 (ix3 b m e) k = ix2 e k :=
  funext fun a => Fin.ext (by match a with | ⟨0, _⟩ => rfl | ⟨1, _⟩ => rfl)

/-- The bias broadcast to `[16, 1024, 256]` reads, for the entry `(b, m, e)`, the bias at `e`
    (the layer of `g`). -/
theorem idx_v6_v7 (b : Fin 16) (m : Fin 1024) (e : Fin 256) :
    idx_main_v6 (idx_main_v7 (ix3 b m e)) = ix1 e :=
  funext fun a => Fin.ext (by match a with | ⟨0, _⟩ => rfl)

/-- The layer of `v` reads, for the entry `(b, m, d)` and the contracted position `k`, the input
    at `(b, m, k)`. -/
theorem lidx_v10 (b : Fin 16) (m : Fin 1024) (d k : Fin 256) :
    lidx_main_v10 (ix3 b m d) k = ix3 b m k :=
  funext fun a => Fin.ext (by match a with | ⟨0, _⟩ => rfl | ⟨1, _⟩ => rfl | ⟨2, _⟩ => rfl)

/-- … and the weight at `(d, k)` (the layer of `v`). -/
theorem ridx_v10 (b : Fin 16) (m : Fin 1024) (d k : Fin 256) :
    ridx_main_v10 (ix3 b m d) k = ix2 d k :=
  funext fun a => Fin.ext (by match a with | ⟨0, _⟩ => rfl | ⟨1, _⟩ => rfl)

/-- The bias broadcast to `[16, 1024, 256]` reads, for the entry `(b, m, d)`, the bias at `d`
    (the layer of `v`). -/
theorem idx_v11_v12 (b : Fin 16) (m : Fin 1024) (d : Fin 256) :
    idx_main_v11 (idx_main_v12 (ix3 b m d)) = ix1 d :=
  funext fun a => Fin.ext (by match a with | ⟨0, _⟩ => rfl)

/-- The scores contract the feature axis with the batch axis shared: the score `(b, n, m)` reads,
    at the contracted position `e`, the left operand at `(b, n, e)`. -/
theorem lidx_v15 (b : Fin 16) (n : Fin 4096) (m : Fin 1024) (e : Fin 256) :
    lidx_main_v15 (ix3 b n m) e = ix3 b n e :=
  funext fun a => Fin.ext (by match a with | ⟨0, _⟩ => rfl | ⟨1, _⟩ => rfl | ⟨2, _⟩ => rfl)

/-- … and the right operand at `(b, m, e)`. -/
theorem ridx_v15 (b : Fin 16) (n : Fin 4096) (m : Fin 1024) (e : Fin 256) :
    ridx_main_v15 (ix3 b n m) e = ix3 b m e :=
  funext fun a => Fin.ext (by match a with | ⟨0, _⟩ => rfl | ⟨1, _⟩ => rfl | ⟨2, _⟩ => rfl)

/-- The last contraction is over `m` with the batch axis shared: the entry `(b, n, d)` reads, at the
    contracted position `m`, the scaled score at `(b, n, m)`. -/
theorem lidx_v18 (b : Fin 16) (n : Fin 4096) (d : Fin 256) (m : Fin 1024) :
    lidx_main_v18 (ix3 b n d) m = ix3 b n m :=
  funext fun a => Fin.ext (by match a with | ⟨0, _⟩ => rfl | ⟨1, _⟩ => rfl | ⟨2, _⟩ => rfl)

/-- … and `v` at `(b, m, d)`. -/
theorem ridx_v18 (b : Fin 16) (n : Fin 4096) (d : Fin 256) (m : Fin 1024) :
    ridx_main_v18 (ix3 b n d) m = ix3 b m d :=
  funext fun a => Fin.ext (by match a with | ⟨0, _⟩ => rfl | ⟨1, _⟩ => rfl | ⟨2, _⟩ => rfl)

end Indices

/-! ### The three dense layers -/

section Layers

variable (x0 : (⟨S16x4096x256, .f32⟩ : BufTy).Contents (Elt Ideal))
  (x1 : (⟨S16x1024x256, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))

/-- The program's first layer at `(b, n, e)` is `l (b, n, e) = tanh (Σₖ x0 (b, n, k) · Wl (e, k) + bl e)`. -/
theorem v4_eq (b : Fin 16) (n : Fin 4096) (e : Fin 256) :
    val_main_v4 (F := Ideal) x0 x2 x3 (ix3 b n e) = act 16 4096 x0 x2 x3 b n e := by
  rw [val_main_v4_apply, val_main_v3_apply, val_main_v0_apply, val_main_v2_apply, val_main_v1_apply,
    idx_v1_v2, Ideal.hostUnary_tanh_def, Ideal.addf_def]
  simp only [lidx_v0, ridx_v0]
  rfl

/-- The program's second layer at `(b, m, e)` is `g (b, m, e) = tanh (Σₖ x1 (b, m, k) · Wg (e, k) + bg e)`. -/
theorem v9_eq (b : Fin 16) (m : Fin 1024) (e : Fin 256) :
    val_main_v9 (F := Ideal) x1 x4 x5 (ix3 b m e) = act 16 1024 x1 x4 x5 b m e := by
  rw [val_main_v9_apply, val_main_v8_apply, val_main_v5_apply, val_main_v7_apply, val_main_v6_apply,
    idx_v6_v7, Ideal.hostUnary_tanh_def, Ideal.addf_def]
  simp only [lidx_v5, ridx_v5]
  rfl

/-- The program's third layer at `(b, m, d)` is `v (b, m, d) = tanh (Σₖ x1 (b, m, k) · Wv (d, k) + bv d)`. -/
theorem v14_eq (b : Fin 16) (m : Fin 1024) (d : Fin 256) :
    val_main_v14 (F := Ideal) x1 x6 x7 (ix3 b m d) = act 16 1024 x1 x6 x7 b m d := by
  rw [val_main_v14_apply, val_main_v13_apply, val_main_v10_apply, val_main_v12_apply, val_main_v11_apply,
    idx_v11_v12, Ideal.hostUnary_tanh_def, Ideal.addf_def]
  simp only [lidx_v10, ridx_v10]
  rfl

/-! ### The two contractions and the result -/

/-- The scores divided by the literal: at `(b, n, m)` the program's quotient is
    `(Σₑ l (b, n, e) · g (b, m, e)) / 1024`, the divisor being the value of the pattern `0x44800000`. -/
theorem v17_eq (b : Fin 16) (n : Fin 4096) (m : Fin 1024) :
    val_main_v17 (F := Ideal) x0 x1 x2 x3 x4 x5 (ix3 b n m)
      = Ideal.div (∑ e : Fin 256, act 16 4096 x0 x2 x3 b n e * act 16 1024 x1 x4 x5 b m e)
          (Ideal.ofBits .f32 0x44800000#32) := by
  rw [val_main_v17_apply, val_main_v15_apply, val_main_v16_apply, val_main_cst_apply, Ideal.hostDivf_def,
    Ideal.ofBits_def]
  simp only [lidx_v15, ridx_v15, v4_eq, v9_eq]

/-- THE READING: at every entry `(b, n, d)` the reference program's result, on the extended reals, is
    `refOut (b, n, d) = Σₘ ((Σₑ l (b, n, e) · g (b, m, e)) / 1024) · v (b, m, d) + x0 (b, n, d)`. -/
theorem ref_is_spec (b : Fin 16) (n : Fin 4096) (d : Fin 256) :
    val_main_v19 (F := Ideal) x0 x1 x2 x3 x4 x5 x6 x7 (ix3 b n d) = refOut x0 x1 x2 x3 x4 x5 x6 x7 b n d := by
  rw [val_main_v19_apply, val_main_v18_apply, Ideal.addf_def]
  simp only [lidx_v18, ridx_v18, v17_eq, v14_eq]
  rfl

/-- The same as an equation of arrays: the reference program's result is the array whose entry at
    an index `i` is `refOut` at the coordinates of `i`. -/
theorem ref_is_spec_fun :
    val_main_v19 (F := Ideal) x0 x1 x2 x3 x4 x5 x6 x7
      = fun i => refOut x0 x1 x2 x3 x4 x5 x6 x7 (i 0) (i 1) (i 2) := by
  funext i
  rw [ValueIdx.eq_ix3 i]
  exact ref_is_spec x0 x1 x2 x3 x4 x5 x6 x7 (i 0) (i 1) (i 2)

end Layers

end Cert.Attn.RefSpec

end
-- ==== Proof.FiniteInputs.lean ====
import proofs.«168025_j43911745634336_1_alg».proof.Pre_finite_inputs
import Idealize.ShloMosaic.PureOps.Ideal
import Idealize.ShloMosaic.Lib.ReduceAll
import Idealize.ShloMosaic.Lib.ValueIdx

noncomputable section

open Idealize.ShloMosaic

namespace Cert.Attn.Finite

open Cert.Pre_finite_inputs
open Idealize.ShloMosaic.ValueIdx

/-- The shape of rank 0 has exactly one index: two indices agree because there is no axis to differ on. -/
instance scalarIdxSubsingleton : Subsingleton S_.Idx := ⟨fun a b => funext fun d => d.elim0⟩

/-- The f32 pattern with exponent all ones and significand zero denotes the extended real +∞. -/
theorem ofBits_posInf : Ideal.ofBits .f32 0x7F800000#32 = (⊤ : EReal) := by
  simp [Ideal.ofBits, Ideal.ieee]

/-- One extended real x: if the strict comparison |x| < +∞ holds (with |x| = max x (-x), and +∞ given by its f32
    pattern), then x is neither +∞ nor -∞, that is, x is a real number. -/
theorem real_of_abs_lt_posInf (x : EReal)
    (h : Ideal.cmp .olt (max x (-x)) (Ideal.ofBits .f32 0x7F800000#32) = 1#1) :
    ∃ r : ℝ, x = (r : EReal) := by
  rw [ofBits_posInf] at h
  induction x using EReal.rec with
  | bot => simp [Ideal.cmp] at h
  | coe r => exact ⟨r, rfl⟩
  | top => simp [Ideal.cmp] at h

/-- One array a of any shape S: if the conjunction over all entries of |a i| < +∞ is true (the reduction by "and",
    from the constant true, of the entrywise comparison against +∞ broadcast from a scalar), then every entry of a
    is a real number. -/
theorem all_real {S : Shape} {axes : List (Fin S.rank)}
    (hb : S_.BroadcastsInDim S (![] : Fin 0 → Fin S.rank)) (hr : S.ReducesTo axes S_) (hu : 0 < S_.numel)
    (a : FVec Ideal S .f32)
    (h : Host.reduce IntOp.andi
          (cmpf .olt (Host.absf a) (broadcastInDim S ![] hb (constant (F := Ideal) S_ .f32 0x7F800000#32)))
          (constantI S_ 1 1#1) hr hu ix0 = 1#1) :
    ∀ i, ∃ r : ℝ, a i = (r : EReal) := by
  intro i
  have e := Host.reduce_andi_all _ _ hr hu ix0 h i
  exact real_of_abs_lt_posInf (a i) e

/-- The conjunction of two truth values of rank 0 is true exactly when both are. -/
theorem and_scalar (x y : IVec S_ 1) (h : andi x y ix0 = 1#1) : x ix0 = 1#1 ∧ y ix0 = 1#1 :=
  IntOp.andi_eq_one.1 h

/-- If the precondition "every input is finite" evaluates to true on eight arrays of extended reals, then every entry
    of each of the eight arrays is a real number (neither +∞ nor -∞). -/
theorem entries_real [Cert.Pre_finite_inputs.Facts]
    (a0 : FVec Ideal S16x4096x256 .f32) (a1 : FVec Ideal S16x1024x256 .f32)
    (a2 : FVec Ideal S256x256 .f32) (a3 : FVec Ideal S256 .f32)
    (a4 : FVec Ideal S256x256 .f32) (a5 : FVec Ideal S256 .f32)
    (a6 : FVec Ideal S256x256 .f32) (a7 : FVec Ideal S256 .f32)
    (h : Cert.Pre_finite_inputs.fn (F := Ideal) a0 a1 a2 a3 a4 a5 a6 a7 = (fun _ => 1#1)) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) := by
  have g := congrFun h ix0
  dsimp only [fn, fn_part1, fn_part2] at g
  obtain ⟨g, g7⟩ := and_scalar _ _ g
  obtain ⟨g, g6⟩ := and_scalar _ _ g
  obtain ⟨g, g5⟩ := and_scalar _ _ g
  obtain ⟨g, g4⟩ := and_scalar _ _ g
  obtain ⟨g, g3⟩ := and_scalar _ _ g
  obtain ⟨g, g2⟩ := and_scalar _ _ g
  obtain ⟨g0, g1⟩ := and_scalar _ _ g
  exact ⟨all_real _ _ _ a0 g0, all_real _ _ _ a1 g1, all_real _ _ _ a2 g2, all_real _ _ _ a3 g3,
    all_real _ _ _ a4 g4, all_real _ _ _ a5 g5, all_real _ _ _ a6 g6, all_real _ _ _ a7 g7⟩

end Cert.Attn.Finite
-- ==== Proof.lean ====
/-
  The certificate of a linear cross-attention block: the kernel against its reference on the extended reals.

  Both programs compute, from a [16, 4096, 256] array `local`, a [16, 1024, 256] array `raw_global` and three dense
  layers with a hyperbolic tangent (l from `local`; g and v from `raw_global`), the array
      out = (l · gᵀ / 1024) · v + local.
  The reference forms the [4096, 1024] scores l · gᵀ first. The kernel associates the other way: a first pipelined
  region forms the small [256, 256] matrix gᵀ · v scaled by 2⁻¹⁰ = 1/1024 for each batch entry, and a second one forms
  l times that matrix plus `local`. On the extended reals a change of float format is the identity and the two matrix
  products are plain sums, so the two results differ only by moving the constant across a sum and exchanging two finite
  sums — laws of the reals that fail at infinities. The precondition makes every input a real; a hyperbolic tangent of a
  real is a real; so every quantity involved is a real and the two results are equal entry by entry.

  The three frame claims are the generated frames (the reference's is its generated run with the result dropped). The
  kernel is its own idealization: no operation was rewritten, and the claim of preservation is the true proposition.
-/
import proofs.«168025_j43911745634336_1_alg».proof.Defs
import proofs.«168025_j43911745634336_1_alg».proof.Proof.Gen.Kernel
import proofs.«168025_j43911745634336_1_alg».proof.Proof.Gen.Kernel.Skeleton
import proofs.«168025_j43911745634336_1_alg».proof.Proof.Gen.Kernel.Launch
import proofs.«168025_j43911745634336_1_alg».proof.Proof.Gen.Kernel.Points
import proofs.«168025_j43911745634336_1_alg».proof.Proof.Gen.Kernel.Frame
import proofs.«168025_j43911745634336_1_alg».proof.Proof.Gen.KernelIdeal
import proofs.«168025_j43911745634336_1_alg».proof.Proof.Gen.KernelIdeal.Skeleton
import proofs.«168025_j43911745634336_1_alg».proof.Proof.Gen.KernelIdeal.Launch
import proofs.«168025_j43911745634336_1_alg».proof.Proof.Gen.KernelIdeal.Points
import proofs.«168025_j43911745634336_1_alg».proof.Proof.Gen.KernelIdeal.Frame
import proofs.«168025_j43911745634336_1_alg».proof.Proof.Gen.ReferenceIdeal
import proofs.«168025_j43911745634336_1_alg».proof.Proof.Gen.ReferenceIdeal.Run
import proofs.«168025_j43911745634336_1_alg».proof.Proof.Gen.ReferenceIdeal.Read
import proofs.«168025_j43911745634336_1_alg».proof.Proof.Gen.Pre_finite_inputs
import proofs.«168025_j43911745634336_1_alg».proof.Proof.KRun
import proofs.«168025_j43911745634336_1_alg».proof.Proof.KValue
import proofs.«168025_j43911745634336_1_alg».proof.Proof.RefSpec
import proofs.«168025_j43911745634336_1_alg».proof.Proof.FiniteInputs
import proofs.«168025_j43911745634336_1_alg».proof.Proof.Spec
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The idealized kernel runs and leaves its arguments unchanged: the generated frame. -/
theorem frame_kernelIdeal : Cert.frame_KernelIdeal := fun m ρ _ => Cert.KernelIdeal.Gen.frame m ρ

/-- The idealized reference runs and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten by the idealization: there is nothing to preserve. -/
theorem preserves : Cert.preserves_Kernel_KernelIdeal := trivial

/-- From memories agreeing on the eight arguments, both idealized programs end with the same result: the kernel's is
    `kerOut` of the arguments (the run with its result named, then the two regions read back to the launch arrays), the
    reference's is `refOut` of them (its generated run read operation by operation), and on real inputs `refOut` is
    `kerOut`. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.KValue.kernel_value m ρ c), (h c).2⟩)
      (Cert.KernelIdeal.Result.run_result (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7, Cert.ReferenceIdeal.Read.val_main_v19_eq, Cert.Attn.RefSpec.ref_is_spec_fun]
  obtain ⟨r0, r1, r2, r3, r4, r5, r6, r7⟩ := Cert.Attn.Finite.entries_real _ _ _ _ _ _ _ _ (hpre c)
  funext i
  exact Cert.Attn.Spec.ref_eq_ker _ _ _ _ _ _ _ _ r0 r1 r2 r3 r4 r5 r6 r7 (i 0) (i 1) (i 2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
